-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S100000x1 : Shape := ⟨2, ![100000, 1]⟩
abbrev S1x64 : Shape := ⟨2, ![1, 64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S1000000 : S_.BroadcastsInDim S1000000 (![] : Fin 0 → Fin S1000000.rank)
  reducesTo_S1000000_S_d0 : S1000000.ReducesTo [0] S_
  bcast_S_S100000x1 : S_.BroadcastsInDim S100000x1 (![] : Fin 0 → Fin S100000x1.rank)
  reducesTo_S100000x1_S_d0_1 : S100000x1.ReducesTo [0, 1] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S100000x1 .f32) (main_arg5 : FVec F S1x64 .f32) (main_arg6 : FVec F S1x64 .f32) (main_arg7 : FVec F S64x64 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S100000x1 .f32 := Host.absf main_arg4
  let main_cst_6 : FVec F S_ .f32 := constant S_ .f32 0x7F800000#32
  let main_v20 : FVec F S100000x1 .f32 := broadcastInDim S100000x1 ![] bcast_S_S100000x1 main_cst_6
  let main_v21 : IVec S100000x1 1 := cmpf .olt main_v19 main_v20
  let main_c_7 : IVec S_ 1 := constantI S_ 1 1#1
  let main_v22 : IVec S_ 1 := (fun x v => Host.reduce IntOp.andi x v reducesTo_S100000x1_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S1000000x64 .f32) (main_arg2 : FVec F S1000000 .f32) (main_arg3 : FVec F S100000x1 .f32) (main_arg4 : FVec F S100000x1 .f32) (main_arg5 : FVec F S1x64 .f32) (main_arg6 : FVec F S1x64 .f32) (main_arg7 : FVec F S64x64 .f32) (main_arg8 : IVec S1000000 32) (main_arg9 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg6 main_arg7 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S100000x1 : Shape := ⟨2, ![100000, 1]⟩
abbrev S1x64 : Shape := ⟨2, ![1, 64]⟩
abbrev S64x64 : Shape := ⟨2, ![64, 64]⟩
abbrev S_ : Shape := ⟨0, ![]⟩
abbrev S1000000x1 : Shape := ⟨2, ![1000000, 1]⟩
abbrev S2x64 : Shape := ⟨2, ![2, 64]⟩
abbrev S8000x64 : Shape := ⟨2, ![8000, 64]⟩
abbrev S8000x1 : Shape := ⟨2, ![8000, 1]⟩
abbrev S64x2 : Shape := ⟨2, ![64, 2]⟩
abbrev S8000x2 : Shape := ⟨2, ![8000, 2]⟩

abbrev nBuf : Space → Nat
  | .hbm => 42
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .f32⟩
  | .hbm, ⟨3, _⟩ => ⟨S100000x1, .f32⟩
  | .hbm, ⟨4, _⟩ => ⟨S100000x1, .f32⟩
  | .hbm, ⟨5, _⟩ => ⟨S1x64, .f32⟩
  | .hbm, ⟨6, _⟩ => ⟨S1x64, .f32⟩
  | .hbm, ⟨7, _⟩ => ⟨S64x64, .f32⟩
  | .hbm, ⟨8, _⟩ => ⟨S1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x1, .f32⟩
  | .hbm, ⟨28, _⟩ => ⟨S1000000x64, .f32⟩
  | .hbm, ⟨29, _⟩ => ⟨S1000000x64, .f32⟩
  | .hbm, ⟨30, _⟩ => ⟨S1000000x64, .bf16⟩
  | .hbm, ⟨31, _⟩ => ⟨S1000000x1, .f32⟩
  | .hbm, ⟨32, _⟩ => ⟨S1000000x1, .f32⟩
  | .hbm, ⟨33, _⟩ => ⟨S2x64, .f32⟩
  | .hbm, ⟨34, _⟩ => ⟨S1000000x64, .bf16⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S100000x64, .f32⟩
  | .hbm, ⟨41, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .bf16⟩
  | .local _ .vmem, ⟨3, _⟩ => ⟨S8000x64, .bf16⟩
  | .local _ .vmem, ⟨4, _⟩ => ⟨S8000x1, .f32⟩
  | .local _ .vmem, ⟨5, _⟩ => ⟨S8000x1, .f32⟩
  | .local _ .vmem, ⟨6, _⟩ => ⟨S2x64, .f32⟩
  | .local _ .vmem, ⟨7, _⟩ => ⟨S64x64, .f32⟩
  | .local _ .vmem, ⟨8, _⟩ => ⟨S8000x64, .bf16⟩
  | .local _ .vmem, ⟨9, _⟩ => ⟨S8000x64, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bitsLt_bf16_f32 : FTy.bits .bf16 < FTy.bits .f32
  concatenates_S1x64_S1x64_S2x64_d0 : Shape.Concatenates [S1x64, S1x64] S2x64 0
  inb_S8000x64_S8000x64_0_0 : ∀ a, (![0, 0] : Fin 2 → Nat) a + S8000x64.size a ≤ S8000x64.size a
  h_S8000x64 : 0 < S8000x64.numel
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S64x64_S64x64_0_0 : ∀ a, (![0, 0] : Fin 2 → Nat) a + S64x64.size a ≤ S64x64.size a
  h_S64x64 : 0 < S64x64.numel
  transposes_S2x64_p1_0_S64x2 : S2x64.Transposes [1, 0] S64x2
  transposes_S64x64_p1_0_S64x64 : S64x64.Transposes [1, 0] S64x64
  slices_S8000x2_o0_0_S8000x1 : S8000x2.Slices ![0, 0] S8000x1
  slices_S8000x2_o0_1_S8000x1 : S8000x2.Slices ![0, 1] S8000x1
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  packedbf16_S8000x64_S8000x64_0_0 : (Rect.unit (s := S8000x64) ![0, 0] S8000x64.size inb_S8000x64_S8000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  gather_S100000x1_S1000000x1_S1000000x1_1_0_n_n_0_1_11_wf : GatherDims.WF S100000x1 S1000000x1 S1000000x1 [1] [0] [] [0] [] 1 ![1, 1]
  dot_S8000x64_S64x2_S8000x2_1_0_0_1_n_n_wf : DotDims.WF S8000x64 S64x2 S8000x2 [1] [0] [0] [1] [] []
  dot_S8000x64_S64x64_S8000x64_1_0_0_1_n_n_wf : DotDims.WF S8000x64 S64x64 S8000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .bf16 = 32 ∨ (Rect.block (s := S1000000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1000000x1.size a
  hwx0_2 : ∀ i : grid0.Coords, EltTy.bits .f32 = 32 ∨ (Rect.block (s := S1000000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1000000x64.size a
  hwx0_5 : ∀ i : grid0.Coords, EltTy.bits .bf16 = 32 ∨ (Rect.block (s := S1000000x64) S8000x64.size (cc0_transform_5 i) (hinb0_5 i)).WholeWords (EltTy.packing .bf16)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S100000x1 : Shape := ⟨2, ![100000, 1]⟩
abbrev S1x64 : Shape := ⟨2, ![1, 64]⟩
abbrev S64x64 : Shape := ⟨2, ![64, 64]⟩
abbrev S64x1 : Shape := ⟨2, ![64, 1]⟩
abbrev S1000000x1 : Shape := ⟨2, ![1000000, 1]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .f32⟩
  | .hbm, ⟨3, _⟩ => ⟨S100000x1, .f32⟩
  | .hbm, ⟨4, _⟩ => ⟨S100000x1, .f32⟩
  | .hbm, ⟨5, _⟩ => ⟨S1x64, .f32⟩
  | .hbm, ⟨6, _⟩ => ⟨S1x64, .f32⟩
  | .hbm, ⟨7, _⟩ => ⟨S64x64, .f32⟩
  | .hbm, ⟨8, _⟩ => ⟨S1000000, .i32⟩
  | .hbm, ⟨9, _⟩ => ⟨S1000000, .i32⟩
  | .hbm, ⟨10, _⟩ => ⟨S64x1, .f32⟩
  | .hbm, ⟨11, _⟩ => ⟨S1000000x1, .f32⟩
  | .hbm, ⟨12, _⟩ => ⟨S1000000x1, .f32⟩
  | .hbm, ⟨13, _⟩ => ⟨S1000000x1, .f32⟩
  | .hbm, ⟨14, _⟩ => ⟨S_, .f32⟩
  | .hbm, ⟨15, _⟩ => ⟨S1000000x1, .f32⟩
  | .hbm, ⟨16, _⟩ => ⟨S1000000x1, .f32⟩
  | .hbm, ⟨17, _⟩ => ⟨S_, .f32⟩
  | .hbm, ⟨18, _⟩ => ⟨S1000000x1, .f32⟩
  | .hbm, ⟨19, _⟩ => ⟨S1000000x1, .f32⟩
  | .hbm, ⟨20, _⟩ => ⟨S64x1, .f32⟩
  | .hbm, ⟨21, _⟩ => ⟨S1000000x1, .f32⟩
  | .hbm, ⟨22, _⟩ => ⟨S1000000x1, .f32⟩
  | .hbm, ⟨23, _⟩ => ⟨S1000000x1, .f32⟩
  | .hbm, ⟨24, _⟩ => ⟨S_, .f32⟩
  | .hbm, ⟨25, _⟩ => ⟨S1000000x1, .f32⟩
  | .hbm, ⟨26, _⟩ => ⟨S1000000x1, .f32⟩
  | .hbm, ⟨27, _⟩ => ⟨S_, .f32⟩
  | .hbm, ⟨28, _⟩ => ⟨S1000000x1, .f32⟩
  | .hbm, ⟨29, _⟩ => ⟨S1000000x1, .f32⟩
  | .hbm, ⟨30, _⟩ => ⟨S64x64, .f32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x1, .f32⟩
  | .hbm, ⟨50, _⟩ => ⟨S1000000x1, .f32⟩
  | .hbm, ⟨51, _⟩ => ⟨S1000000x64, .f32⟩
  | .hbm, ⟨52, _⟩ => ⟨S1000000x64, .f32⟩
  | .hbm, ⟨53, _⟩ => ⟨S1000000x1, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S100000x64, .f32⟩
  | .hbm, ⟨64, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  transposes_S1x64_S64x1_1_0 : S1x64.Transposes [1, 0] S64x1
  bcast_S_S1000000x1 : S_.BroadcastsInDim S1000000x1 (![] : Fin 0 → Fin S1000000x1.rank)
  transposes_S64x64_S64x64_1_0 : S64x64.Transposes [1, 0] S64x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1000000x64_S64x1_S1000000x1_1_0_0_1_n_n_wf : DotDims.WF S1000000x64 S64x1 S1000000x1 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  gather_S100000x1_S1000000x1_S1000000x1_1_0_n_n_0_1_11_wf : GatherDims.WF S100000x1 S1000000x1 S1000000x1 [1] [0] [] [0] [] 1 ![1, 1]
  scatter_S100000x64_S1000000x1_S1000000x64_1_0_0_1_wf : ScatterDims.WF S100000x64 S1000000x1 S1000000x64 [1] [0] [0] 1

variable [Facts₀]

def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.EdgeBlock.lean ====
/-
  One block of 8000 edges: what the kernel body stores, read at an entry.

  With x the block of edge features, g the two gate weight rows, w the projection weights, h the (already
  scaled) source rows and s the (already scaled) attention column of the block, the stored entry (r, d) is
      h(r,d) · σ(Σₖ x(r,k)·g(0,k)) + (Σₖ x(r,k)·w(d,k)) · (σ(Σₖ x(r,k)·g(1,k)) · s(r,0)),
  σ the logistic function.  The two matrix products contract the feature axis against the TRANSPOSED weights,
  so both read row r of x against a row of the weights; the gates are columns 0 and 1 of the first product,
  broadcast along the 64 lanes.  At the exact model the changes of float format are the identity.
-/
import proofs.«105984_j77300821393408_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.EdgeBlock

open Idealize.ShloMosaic Idealize.ShloMosaic.ValueIdx Cert.KernelIdeal Cert.KernelIdeal.Gen

/-- Row `r` of the block against row `c` of the two gate weight rows (the product is taken against their transpose). -/
theorem gate_logit_apply (x : FVec Ideal S8000x64 .bf16) (g : FVec Ideal S2x64 .bf16) (r : Fin 8000) (c : Fin 2) :
    matmul dot_S8000x64_S64x2_S8000x2_1_0_0_1_n_n none x (transpose S64x2 [1, 0] g transposes_S2x64_p1_0_S64x2)
        (constant S8000x2 .f32 0x00000000#32) (ix2 r c)
      = ∑ k : Fin 64, x (ix2 r k) * g (ix2 c k) := by
  simp only [matmul]
  rw [Ideal.matmul_constant_zero_apply, ← Equiv.sum_comp (contrEquiv1 dot_S8000x64_S64x2_S8000x2_1_0_0_1_n_n 64 rfl rfl).symm]
  refine Finset.sum_congr rfl fun k _ => ?_
  have hk := contrEquiv1_symm_val dot_S8000x64_S64x2_S8000x2_1_0_0_1_n_n 64 rfl rfl k
  have e0 : (dot_S8000x64_S64x2_S8000x2_1_0_0_1_n_n.lhsIdx (ix2 r c)
      ((contrEquiv1 dot_S8000x64_S64x2_S8000x2_1_0_0_1_n_n 64 rfl rfl).symm k) 0).val = r.val := by
    unfold DotDims.lhsIdx
    rw [dif_neg (show ¬(0 : Fin S8000x64.rank) ∈ dot_S8000x64_S64x2_S8000x2_1_0_0_1_n_n.lhsBatch by decide),
      dif_pos (show (0 : Fin S8000x64.rank) ∈ dot_S8000x64_S64x2_S8000x2_1_0_0_1_n_n.lhsNonContracting by decide)]
    rfl
  have e1 : (dot_S8000x64_S64x2_S8000x2_1_0_0_1_n_n.rhsIdx (ix2 r c)
      ((contrEquiv1 dot_S8000x64_S64x2_S8000x2_1_0_0_1_n_n 64 rfl rfl).symm k) 1).val = c.val := by
    unfold DotDims.rhsIdx
    rw [dif_neg (show ¬(1 : Fin S64x2.rank) ∈ dot_S8000x64_S64x2_S8000x2_1_0_0_1_n_n.rhsBatch by decide),
      dif_pos (show (1 : Fin S64x2.rank) ∈ dot_S8000x64_S64x2_S8000x2_1_0_0_1_n_n.rhsNonContracting by decide)]
    rfl
  have el : dot_S8000x64_S64x2_S8000x2_1_0_0_1_n_n.lhsIdx (ix2 r c)
      ((contrEquiv1 dot_S8000x64_S64x2_S8000x2_1_0_0_1_n_n 64 rfl rfl).symm k) = ix2 r k := funext fun a => Fin.ext (by
    match a with
    | ⟨0, _⟩ => exact e0
    | ⟨1, _⟩ => exact (dot_S8000x64_S64x2_S8000x2_1_0_0_1_n_n.lhsIdx_val_of_single rfl _ _).trans hk)
  rw [el]
  refine congrArg (x (ix2 r k) * ·) ?_
  exact transpose_apply [1, 0] g transposes_S2x64_p1_0_S64x2 _ (ix2 c k) (fun b => match b with
    | ⟨0, _⟩ => ((dot_S8000x64_S64x2_S8000x2_1_0_0_1_n_n.rhsIdx_val_of_single rfl _ _).trans hk).symm
    | ⟨1, _⟩ => e1.symm)

/-- Row `r` of the block against row `d` of the projection weights (again through their transpose). -/
theorem projection_apply (x : FVec Ideal S8000x64 .bf16) (w : FVec Ideal S64x64 .bf16) (r : Fin 8000) (d : Fin 64) :
    matmul dot_S8000x64_S64x64_S8000x64_1_0_0_1_n_n none x (transpose S64x64 [1, 0] w transposes_S64x64_p1_0_S64x64)
        (constant S8000x64 .f32 0x00000000#32) (ix2 r d)
      = ∑ k : Fin 64, x (ix2 r k) * w (ix2 d k) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have e0 : (dot_S8000x64_S64x64_S8000x64_1_0_0_1_n_n.lhsIdx (ix2 r d)
      ((contrEquiv1 dot_S8000x64_S64x64_S8000x64_1_0_0_1_n_n 64 rfl rfl).symm k) 0).val = r.val := by
    unfold DotDims.lhsIdx
    rw [dif_neg (show ¬(0 : Fin S8000x64.rank) ∈ dot_S8000x64_S64x64_S8000x64_1_0_0_1_n_n.lhsBatch by decide),
      dif_pos (show (0 : Fin S8000x64.rank) ∈ dot_S8000x64_S64x64_S8000x64_1_0_0_1_n_n.lhsNonContracting by decide)]
    rfl
  have e1 : (dot_S8000x64_S64x64_S8000x64_1_0_0_1_n_n.rhsIdx (ix2 r d)
      ((contrEquiv1 dot_S8000x64_S64x64_S8000x64_1_0_0_1_n_n 64 rfl rfl).symm k) 1).val = d.val := by
    unfold DotDims.rhsIdx
    rw [dif_neg (show ¬(1 : Fin S64x64.rank) ∈ dot_S8000x64_S64x64_S8000x64_1_0_0_1_n_n.rhsBatch by decide),
      dif_pos (show (1 : Fin S64x64.rank) ∈ dot_S8000x64_S64x64_S8000x64_1_0_0_1_n_n.rhsNonContracting by decide)]
    rfl
  have el : dot_S8000x64_S64x64_S8000x64_1_0_0_1_n_n.lhsIdx (ix2 r d)
      ((contrEquiv1 dot_S8000x64_S64x64_S8000x64_1_0_0_1_n_n 64 rfl rfl).symm k) = ix2 r k := funext fun a => Fin.ext (by
    match a with
    | ⟨0, _⟩ => exact e0
    | ⟨1, _⟩ => exact (dot_S8000x64_S64x64_S8000x64_1_0_0_1_n_n.lhsIdx_val_of_single rfl _ _).trans hk)
  rw [el]
  refine congrArg (x (ix2 r k) * ·) ?_
  exact transpose_apply [1, 0] w transposes_S64x64_p1_0_S64x64 _ (ix2 d k) (fun b => match b with
    | ⟨0, _⟩ => ((dot_S8000x64_S64x64_S8000x64_1_0_0_1_n_n.rhsIdx_val_of_single rfl _ _).trans hk).symm
    | ⟨1, _⟩ => e1.symm)

/-- The logistic function of a column, at an entry. -/
theorem logistic_apply (u : FVec Ideal S8000x1 .f32) (i : S8000x1.Idx) : logistic u i = Ideal.logistic (u i) := rfl

/-- A column broadcast along the 64 lanes reads its row's entry. -/
theorem lanes_apply (u : FVec Ideal S8000x1 .f32) (r : Fin 8000) (d : Fin 64) :
    broadcastTo S8000x64 u broadcasts_S8000x1_S8000x64 (ix2 r d) = u (ix2 r (0 : Fin 1)) :=
  broadcastTo_apply u broadcasts_S8000x1_S8000x64 (ix2 r d) (ix2 r (0 : Fin 1)) (fun a => match a with
    | ⟨0, _⟩ => by show r.val = if (8000 : Nat) = 1 then 0 else r.val; rw [if_neg (by decide)]
    | ⟨1, _⟩ => by show 0 = if (1 : Nat) = 1 then 0 else d.val; rw [if_pos rfl])

/-- Column `c` of the two-column product, cut out as a column of its own. -/
theorem column0_apply (u : FVec Ideal S8000x2 .f32) (r : Fin 8000) :
    extractStridedSlice S8000x1 ![0, 0] u slices_S8000x2_o0_0_S8000x1 (ix2 r (0 : Fin 1)) = u (ix2 r (0 : Fin 2)) :=
  extractStridedSlice_apply ![0, 0] u slices_S8000x2_o0_0_S8000x1 (ix2 r (0 : Fin 1)) (ix2 r (0 : Fin 2)) (fun a => match a with
    | ⟨0, _⟩ => by show r.val = 0 + r.val; omega
    | ⟨1, _⟩ => by show (0 : Nat) = 0 + 0; rfl)

theorem column1_apply (u : FVec Ideal S8000x2 .f32) (r : Fin 8000) :
    extractStridedSlice S8000x1 ![0, 1] u slices_S8000x2_o0_1_S8000x1 (ix2 r (0 : Fin 1)) = u (ix2 r (1 : Fin 2)) :=
  extractStridedSlice_apply ![0, 1] u slices_S8000x2_o0_1_S8000x1 (ix2 r (0 : Fin 1)) (ix2 r (1 : Fin 2)) (fun a => match a with
    | ⟨0, _⟩ => by show r.val = 0 + r.val; omega
    | ⟨1, _⟩ => by show (1 : Nat) = 1 + 0; rfl)

/-- THE STORED BLOCK at entry `(r, d)`. -/
theorem stored_apply (v0 : Vec Ideal S8000x64 .f32) (v2 : Vec Ideal S2x64 .f32) (v5 : Vec Ideal S64x64 .f32)
    (v15 : Vec Ideal S8000x64 .bf16) (v18 : Vec Ideal S8000x1 .f32) (r : Fin 8000) (d : Fin 64) :
    k0_pay1 v0 v2 v5 v15 v18 (ix2 r d)
      = v15 (ix2 r d) * Ideal.logistic (∑ k : Fin 64, v0 (ix2 r k) * v2 (ix2 (0 : Fin 2) k))
        + (∑ k : Fin 64, v0 (ix2 r k) * v5 (ix2 d k))
          * (Ideal.logistic (∑ k : Fin 64, v0 (ix2 r k) * v2 (ix2 (1 : Fin 2) k)) * v18 (ix2 r (0 : Fin 1))) := by
  unfold k0_pay1
  simp only [shapeCast_self, truncf_apply, extf_apply, addf_apply, mulf_apply, lanes_apply, logistic_apply,
    column0_apply, column1_apply]
  rw [gate_logit_apply, gate_logit_apply, projection_apply]
  simp only [truncf_apply]

end Cert.KernelIdeal.EdgeBlock

end
-- ==== Proof.Blocks.lean ====
/-
  From blocks to the whole message array.

  The grid has 125 points; point t reads rows 8000·t … 8000·t + 7999 of the three per-edge arrays (edge
  features, scaled source rows, scaled attention) and the whole of the two weight arrays, and writes back rows
  8000·t … 8000·t + 7999 of the message array.  So what point t writes back is block t of ONE function of
  the arrays the region finds (the message, entry by entry), the blocks tile the million rows, and the array
  after the run is that function.
-/
import proofs.«105984_j77300821393408_2_alg».proof.Proof.Gen.KernelIdeal.Frame
import proofs.«105984_j77300821393408_2_alg».proof.Proof.EdgeBlock

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The message of edge `e` at feature `d`, from the five arrays the region reads: edge features `rf`, scaled source
    rows `h`, scaled attention `s`, the two gate weight rows `g`, the projection weights `w`. -/
def messageAt (rf : FVec Ideal S1000000x64 .f32) (h : FVec Ideal S1000000x64 .bf16) (s : FVec Ideal S1000000x1 .f32)
    (g : FVec Ideal S2x64 .f32) (w : FVec Ideal S64x64 .f32) (e : Fin 1000000) (d : Fin 64) : EReal :=
  h (ix2 e d) * Ideal.logistic (∑ k : Fin 64, rf (ix2 e k) * g (ix2 (0 : Fin 2) k))
    + (∑ k : Fin 64, rf (ix2 e k) * w (ix2 d k))
      * (Ideal.logistic (∑ k : Fin 64, rf (ix2 e k) * g (ix2 (1 : Fin 2) k)) * s (ix2 e (0 : Fin 1)))

/-- The message array. -/
def message (rf : FVec Ideal S1000000x64 .f32) (h : FVec Ideal S1000000x64 .bf16) (s : FVec Ideal S1000000x1 .f32)
    (g : FVec Ideal S2x64 .f32) (w : FVec Ideal S64x64 .f32) : FVec Ideal S1000000x64 .bf16 :=
  fun i => messageAt rf h s g w (i 0) (i 1)

variable (m : (ℓ : Loc nD τ sig) → Buf (Elt Ideal) ℓ)

theorem hz : (![0, 0] : Fin 2 → Nat) = fun _ => 0 := funext fun a => by fin_cases a <;> rfl

/-- The printed index maps over the grid: the three per-edge windows and the output move one block of rows per point,
    the two weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 125 :=
  (by decide +kernel : ∀ t : Fin grid0.N, _)

/-- Row `r` of block `t` is row `8000·t + r` of the array. -/
def row (t : Fin cfg0.N) (r : Fin 8000) : Fin 1000000 :=
  ⟨t.val * 8000 + r.val, by have := (idx_facts t).2.2.2.2.2.2.2.2.2.2.2.2; have := r.isLt; omega⟩

/-! ## Each window's block, read where the output's rectangle says -/

theorem blk0 (c : Dev nD) (t : Fin cfg0.N) (r : Fin 8000) (k : Fin 64) :
    iblk m c 0 t (ix2 r k) = V m c main_arg1 (ix2 (row t r) k) := by
  obtain ⟨e0, e1, -⟩ := idx_facts t
  show V m c main_arg1 (((cfg0.win 0).blk t).view.emb (ix2 r k)) = V m c main_arg1 (ix2 (row t r) k)
  have h : ((cfg0.win 0).blk t).view.emb (ix2 r k) = ix2 (row t r) k := by
    funext a; apply Fin.ext
    match a with
    | ⟨0, _⟩ => show win0_0.index t (0 : Fin 2) * 8000 + 1 * r.val = t.val * 8000 + r.val; omega
    | ⟨1, _⟩ => show win0_0.index t (1 : Fin 2) * 64 + 1 * k.val = k.val; omega
  rw [h]

theorem blk1 (c : Dev nD) (t : Fin cfg0.N) (r : Fin 8000) (d : Fin 64) :
    iblk m c 1 t (ix2 r d) = V m c main_v16 (ix2 (row t r) d) := by
  obtain ⟨-, -, e0, e1, -⟩ := idx_facts t
  show V m c main_v16 (((cfg0.win 1).blk t).view.emb (ix2 r d)) = V m c main_v16 (ix2 (row t r) d)
  have h : ((cfg0.win 1).blk t).view.emb (ix2 r d) = ix2 (row t r) d := by
    funext a; apply Fin.ext
    match a with
    | ⟨0, _⟩ => show win0_1.index t (0 : Fin 2) * 8000 + 1 * r.val = t.val * 8000 + r.val; omega
    | ⟨1, _⟩ => show win0_1.index t (1 : Fin 2) * 64 + 1 * d.val = d.val; omega
  rw [h]

theorem blk2 (c : Dev nD) (t : Fin cfg0.N) (r : Fin 8000) :
    iblk m c 2 t (ix2 r (0 : Fin 1)) = V m c main_v18 (ix2 (row t r) (0 : Fin 1)) := by
  obtain ⟨-, -, -, -, e0, e1, -⟩ := idx_facts t
  show V m c main_v18 (((cfg0.win 2).blk t).view.emb (ix2 r (0 : Fin 1))) = V m c main_v18 (ix2 (row t r) (0 : Fin 1))
  have h : ((cfg0.win 2).blk t).view.emb (ix2 r (0 : Fin 1)) = ix2 (row t r) (0 : Fin 1) := by
    funext a; apply Fin.ext
    match a with
    | ⟨0, _⟩ => show win0_2.index t (0 : Fin 2) * 8000 + 1 * r.val = t.val * 8000 + r.val; omega
    | ⟨1, _⟩ => show win0_2.index t (1 : Fin 2) * 1 + 1 * 0 = 0; omega
  rw [h]

theorem blk3 (c : Dev nD) (t : Fin cfg0.N) (a : Fin 2) (k : Fin 64) :
    iblk m c 3 t (ix2 a k) = V m c main_v19 (ix2 a k) := by
  obtain ⟨-, -, -, -, -, -, e0, e1, -⟩ := idx_facts t
  show V m c main_v19 (((cfg0.win 3).blk t).view.emb (ix2 a k)) = V m c main_v19 (ix2 a k)
  have h : ((cfg0.win 3).blk t).view.emb (ix2 a k) = ix2 a k := by
    funext b; apply Fin.ext
    match b with
    | ⟨0, _⟩ => show win0_3.index t (0 : Fin 2) * 2 + 1 * a.val = a.val; omega
    | ⟨1, _⟩ => show win0_3.index t (1 : Fin 2) * 64 + 1 * k.val = k.val; omega
  rw [h]

theorem blk4 (c : Dev nD) (t : Fin cfg0.N) (d : Fin 64) (k : Fin 64) :
    iblk m c 4 t (ix2 d k) = V m c main_arg7 (ix2 d k) := by
  obtain ⟨-, -, -, -, -, -, -, -, e0, e1, -⟩ := idx_facts t
  show V m c main_arg7 (((cfg0.win 4).blk t).view.emb (ix2 d k)) = V m c main_arg7 (ix2 d k)
  have h : ((cfg0.win 4).blk t).view.emb (ix2 d k) = ix2 d k := by
    funext b; apply Fin.ext
    match b with
    | ⟨0, _⟩ => show win0_4.index t (0 : Fin 2) * 64 + 1 * d.val = d.val; omega
    | ⟨1, _⟩ => show win0_4.index t (1 : Fin 2) * 64 + 1 * k.val = k.val; omega
  rw [h]

/-- The output's block: entry `(r, d)` of block `t` is entry `(8000·t + r, d)` of the array. -/
theorem emb5 (t : Fin cfg0.N) (r : Fin 8000) (d : Fin 64) :
    ((cfg0.win 5).blk t).view.emb (ix2 r d) = ix2 (row t r) d := by
  obtain ⟨-, -, -, -, -, -, -, -, -, -, e0, e1, -⟩ := idx_facts t
  funext a; apply Fin.ext
  match a with
  | ⟨0, _⟩ => show win0_5.index t (0 : Fin 2) * 8000 + 1 * r.val = t.val * 8000 + r.val; omega
  | ⟨1, _⟩ => show win0_5.index t (1 : Fin 2) * 64 + 1 * d.val = d.val; omega

/-- The body's stored block at a point, entry by entry, is the message at the array's entry. -/
theorem stored_point (c : Dev nD) (t : Fin cfg0.N) (y : S8000x64.Idx) :
    k0_pay1 (iblk m c 0 t) (iblk m c 3 t) (iblk m c 4 t) (iblk m c 1 t) (iblk m c 2 t) y
      = message (V m c main_arg1) (V m c main_v16) (V m c main_v18) (V m c main_v19) (V m c main_arg7)
          (((cfg0.win 5).blk t).view.emb y) := by
  obtain ⟨r, d, rfl⟩ : ∃ (r : Fin 8000) (d : Fin 64), y = ix2 r d := ⟨y 0, y 1, eq_ix2 y⟩
  rw [emb5 t r d]
  refine (EdgeBlock.stored_apply _ _ _ _ _ r d).trans ?_
  show _ = messageAt (V m c main_arg1) (V m c main_v16) (V m c main_v18) (V m c main_v19) (V m c main_arg7) (row t r) d
  unfold messageAt
  simp only [blk0 m c t, blk1 m c t, blk2 m c t, blk3 m c t, blk4 m c t]

/-- WHAT POINT `t` WRITES BACK is block `t` of the message array. -/
theorem flushed_eq (c : Dev nD) (t : Fin cfg0.N) :
    (dats m 0 c).flushed 5 t = ((cfg0.win 5).blk t).view.read (Elt Ideal)
      (message (V m c main_arg1) (V m c main_v16) (V m c main_v18) (V m c main_v19) (V m c main_arg7)) := by
  show (cfg0.win 5).cut (grid0.coords t) ((dats m 0 c).after 5 t) = _
  rw [after0_5]
  unfold out0_5
  rw [View.canon_unit_zero hz]
  simp only [View.ld_unit_zero (S := S8000x64) hz, View.ld_unit_zero (S := S2x64) hz, View.ld_unit_zero (S := S64x64) hz,
    View.ld_unit_zero (S := S8000x1) hz]
  funext y
  exact stored_point m c t y

/-- An index of the array is in point `t`'s block iff each coordinate is in the block's range on its axis. -/
theorem mem_blk5 (t : Fin cfg0.N) (i : S1000000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v20).slice (win0_5.rect t)).set ↔ _
  rw [View.set_slice_whole, Rect.mem_set_unit]
  exact Iff.rfl

/-- The 125 blocks of 8000 rows cover the million rows: row `e` is in block `e / 8000`. -/
theorem cover (i : S1000000x64.Idx) :
    ∃ t : Fin cfg0.N, (cfg0.win 5).flush t = true ∧ i ∈ ((cfg0.win 5).blk t).view.set := by
  have hi0 : (i 0).val < 1000000 := (i 0).isLt
  have hi1 : (i 1).val < 64 := (i 1).isLt
  have ht : (i 0).val / 8000 < cfg0.N := by
    show _ < grid0.N
    rw [N_0]; omega
  refine ⟨⟨(i 0).val / 8000, ht⟩, flush0_5 _, ?_⟩
  rw [mem_blk5]
  obtain ⟨-, -, -, -, -, -, -, -, -, -, e0, e1, -⟩ := idx_facts ⟨(i 0).val / 8000, ht⟩
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_5.index ⟨(i 0).val / 8000, ht⟩ (1 : Fin 2) * 64 ≤ (i 1).val ∧ (i 1).val < win0_5.index ⟨(i 0).val / 8000, ht⟩ (1 : Fin 2) * 64 + 64
    rw [e1]; omega

/-- THE MESSAGE ARRAY after the run. -/
theorem final (c : Dev nD) :
    (dats m 0 c).arrAt 5 cfg0.N
      = message (V m c main_arg1) (V m c main_v16) (V m c main_v18) (V m c main_v19) (V m c main_arg7) :=
  (dats m 0 c).arrAt_eq_of_cover 5 _ (fun t _ => flushed_eq m c t) cover

end Cert.KernelIdeal.Blocks

end
-- ==== Proof.HostTail.lean ====
/-
  The host operations after the kernel's region, as one function of the message array.

  After the region the host widens the messages to the wider float format (over the extended reals this
  changes nothing), sums them into their destination nodes — an accumulating scatter into an array of
  zeros, along the destination index made a column — and multiplies each node's row by the node's own
  scale.  The result of the whole program is this one function of the array the region wrote, of the
  destination indices and of the node scales, the last two as launched.
-/
import proofs.«105984_j77300821393408_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.Pipeline.FrameSuffix

noncomputable section

namespace Cert.KernelIdeal.HostTail

open Idealize.ShloMosaic Idealize.ShloMosaic.TcCoe Idealize.SL.Sem Idealize.ShloMosaic.ValueIdx
open Cert.KernelIdeal Cert.KernelIdeal.Gen

/-- Messages summed into their destination nodes, each node's row then scaled by the node's scale. -/
def aggregate (M : FVec Ideal S1000000x64 .bf16) (x9 : IVec S1000000 32) (x4 : FVec Ideal S100000x1 .f32) :
    FVec Ideal S100000x64 .f32 :=
  mulf (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 x9)
      (extf .f32 M bitsLt_bf16_f32))
    (broadcastInDim S100000x64 ![0, 1] bcast_S100000x1_S100000x64_0_1 x4)

variable (m : (ℓ : Loc nD τ sig) → Buf (Elt Ideal) ℓ)

/-- The program's result: the aggregate of the array the region wrote. -/
theorem tail_eq (c : Dev nD) :
    Pipeline.afterTail₀ cfgs (dats m) 0 (V0 m) [hostOps1] c main_v26
      = aggregate ((dats m 0 c).arrAt 5 cfg0.N) (m ((c : Thread nD τ).loc main_arg9)) (m ((c : Thread nD τ).loc main_arg4)) := by
  unfold Pipeline.afterTail₀
  show StableHlo.after hostOps1 _ (Proc.devRef .tc main_v26) = _
  after_results
  -- the two argument arrays are no window's array: the region leaves them, and so did the host before it
  have h9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans
      (V_main_arg9 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  -- the message array is the last window's array: what the region wrote there
  have h20 : Pipeline.withArrays (cfgs 0).spec c (V0 m c) (fun w => (dats m 0 c).arrAt w (cfgs 0).N) (Proc.devRef .tc main_v20)
      = (dats m 0 c).arrAt 5 cfg0.N :=
    Pipeline.withArrays_arr spec0 launch0.win.arr_inj c _ _ 5
  rw [h9, h4, h20]
  rfl

end Cert.KernelIdeal.HostTail

end
-- ==== Proof.KernelRun.lean ====
/-
  The kernel program's run, with its result named.

  After the region the message array holds the message of every edge (the blocks of 8000 rows tile it); the
  host lines that follow sum the messages of the edges arriving at each destination node and scale the sum by
  the node's factor.  So the program's result is that aggregate of the message array, as one function of
  the arrays the region found and of two argument arrays; the arguments end as they were launched.
-/
import proofs.«105984_j77300821393408_2_alg».proof.Proof.Blocks
import proofs.«105984_j77300821393408_2_alg».proof.Proof.HostTail

set_option maxRecDepth 16384

noncomputable section

namespace Cert.KernelIdeal.KernelRun

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- Every weakly fair execution terminates with the result at the aggregate of the message array and the arguments unchanged. -/
theorem run : θ_run defs (onTc (τ := τ) (main (F := Ideal))) ⟨m, fun _ => 0, ρ⟩ (fun r => ∀ c : Dev nD,
      r.2.mem ((c : Thread nD τ).loc main_v26)
        = HostTail.aggregate (Blocks.message (V m c main_arg1) (V m c main_v16) (V m c main_v18) (V m c main_v19) (V m c main_arg7))
            (m ((c : Thread nD τ).loc main_arg9)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun r h c => ⟨((h c).2 main_v26 (Pipeline.mem_restRefs_of main_v26 (by decide) (by decide))).trans
        ((HostTail.tail_eq m c).trans (congrArg (fun M => HostTail.aggregate M (m ((c : Thread nD τ).loc main_arg9)) (m ((c : Thread nD τ).loc main_arg4))) (Blocks.final m c))),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KernelRun

end
-- ==== Proof.RegionInputs.lean ====
/-
  What the kernel's region finds in the three arrays the host computes before it.

  Before the region the host prepares, for every edge e with source node s(e) (the source index read with
  the wrap of a negative index by the number of nodes):
    • the source rows, scaled:    rows e d = x[s(e), d] * scale[s(e)]   (stored in the narrower float format,
      which over the extended reals changes nothing);
    • the attention, scaled:      attn e   = att[e] * scale[s(e)];
    • the two gate weight rows stacked into one 2 x 64 array.
  Each is first identified as a whole array (the host operations' composed term), then read at an entry:
  a product and a format change are entrywise, a broadcast of a column along the features reads the column
  at (e, 0), a vector made a column reads the vector at e, and a concatenation along the first axis reads
  its first piece at row 0 and its second at row 1.
-/
import proofs.«105984_j77300821393408_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.RegionInputs

open Idealize.ShloMosaic Idealize.ShloMosaic.TcCoe Idealize.SL.Sem Idealize.ShloMosaic.ValueIdx
open Cert.KernelIdeal Cert.KernelIdeal.Gen

/-- The source index of every edge, as a column: an index below zero is read from the end (the number of
    nodes, 100000, is added to it). -/
def srcIdx (x8 : IVec S1000000 32) : IVec S1000000x1 32 :=
  broadcastInDim S1000000x1 ![0] bcast_S1000000_S1000000x1_0
    (select (cmpi .slt x8 (broadcastInDim S1000000 ![] bcast_S_S1000000 (constantI S_ 32 0#32)))
      (addi x8 (broadcastInDim S1000000 ![] bcast_S_S1000000 (constantI S_ 32 100000#32))) x8)

/-- The node features gathered at every edge's source. -/
def srcRows (x0 : FVec Ideal S100000x64 .f32) (x8 : IVec S1000000 32) : FVec Ideal S1000000x64 .f32 :=
  Host.gather gather_S100000x64_S1000000x1_S1000000x64_1_0_n_n_0_1_164 x0 (srcIdx x8)

/-- The node scale gathered at every edge's source, a column. -/
def srcScale (x3 : FVec Ideal S100000x1 .f32) (x8 : IVec S1000000 32) : FVec Ideal S1000000x1 .f32 :=
  Host.gather gather_S100000x1_S1000000x1_S1000000x1_1_0_n_n_0_1_11 x3 (srcIdx x8)

/-! ## Two broadcasts and a concatenation, read at an entry -/

/-- A column broadcast along the 64 features is read at (e, 0). -/
theorem bcast_col_apply {α : Type} (y : S1000000x1.Idx → α) (e : Fin 1000000) (d : Fin 64) :
    broadcastInDim S1000000x64 ![0, 1] bcast_S1000000x1_S1000000x64_0_1 y (ix2 e d) = y (ix2 e (0 : Fin 1)) :=
  broadcastInDim_apply _ bcast_S1000000x1_S1000000x64_0_1 y (ix2 e d) (ix2 e (0 : Fin 1)) (fun a => match a with
    | ⟨0, _⟩ => by show e.val = if (1000000 : Nat) = 1 then 0 else e.val; rw [if_neg (by decide)]
    | ⟨1, _⟩ => by show (0 : Fin 1).val = if (1 : Nat) = 1 then 0 else d.val; rw [if_pos rfl]; rfl)

/-- A vector made a column is read at e. -/
theorem bcast_vec_apply {α : Type} (y : S1000000.Idx → α) (e : Fin 1000000) :
    broadcastInDim S1000000x1 ![0] bcast_S1000000_S1000000x1_0 y (ix2 e (0 : Fin 1)) = y (ix1 e) :=
  broadcastInDim_apply _ bcast_S1000000_S1000000x1_0 y (ix2 e (0 : Fin 1)) (ix1 e) (fun a => match a with
    | ⟨0, _⟩ => by show e.val = if (1000000 : Nat) = 1 then 0 else e.val; rw [if_neg (by decide)])

/-- Two rows stacked: row 0 is the first. -/
theorem stack_apply0 {α : Type} (y₁ y₂ : S1x64.Idx → α) (k : Fin 64) :
    concatenate S2x64 0 [⟨S1x64, y₁⟩, ⟨S1x64, y₂⟩] concatenates_S1x64_S1x64_S2x64_d0 (ix2 (0 : Fin 2) k) = y₁ (ix2 (0 : Fin 1) k) :=
  concatenate_pair_apply_left 0 y₁ y₂ concatenates_S1x64_S1x64_S2x64_d0 (ix2 (0 : Fin 2) k) rfl (ix2 (0 : Fin 1) k)
    (fun b => match b with | ⟨0, _⟩ => rfl | ⟨1, _⟩ => rfl)

/-- Two rows stacked: row 1 is the second. -/
theorem stack_apply1 {α : Type} (y₁ y₂ : S1x64.Idx → α) (k : Fin 64) :
    concatenate S2x64 0 [⟨S1x64, y₁⟩, ⟨S1x64, y₂⟩] concatenates_S1x64_S1x64_S2x64_d0 (ix2 (1 : Fin 2) k) = y₂ (ix2 (0 : Fin 1) k) :=
  concatenate_pair_apply_right 0 y₁ y₂ concatenates_S1x64_S1x64_S2x64_d0 (ix2 (1 : Fin 2) k) rfl rfl (ix2 (0 : Fin 1) k)
    (fun b => match b with | ⟨0, _⟩ => fun h => absurd rfl h | ⟨1, _⟩ => fun _ => rfl) rfl

/-! ## The three arrays, whole -/

variable (m : (ℓ : Loc nD τ sig) → Buf (Elt Ideal) ℓ)

/-- The scaled source rows, as the host operations compose them. -/
theorem rows_eq (c : Dev nD) :
    (V m c main_v16 : S1000000x64.Idx → Ideal .bf16)
      = truncf .bf16 (mulf (srcRows (m ((c : Thread nD τ).loc main_arg0)) (m ((c : Thread nD τ).loc main_arg8)))
          (broadcastInDim S1000000x64 ![0, 1] bcast_S1000000x1_S1000000x64_0_1
            (srcScale (m ((c : Thread nD τ).loc main_arg3)) (m ((c : Thread nD τ).loc main_arg8))))) bitsLt_bf16_f32 := by
  show StableHlo.after hostOps0 (fun b => m (c, b)) (Proc.devRef .tc main_v16) = _
  after_results_simp
  rfl

/-- The scaled attention column. -/
theorem attn_eq (c : Dev nD) :
    (V m c main_v18 : S1000000x1.Idx → Ideal .f32)
      = mulf (broadcastInDim S1000000x1 ![0] bcast_S1000000_S1000000x1_0 (m ((c : Thread nD τ).loc main_arg2)))
          (srcScale (m ((c : Thread nD τ).loc main_arg3)) (m ((c : Thread nD τ).loc main_arg8))) := by
  show StableHlo.after hostOps0 (fun b => m (c, b)) (Proc.devRef .tc main_v18) = _
  after_results_simp
  rfl

/-- The two gate weight rows, stacked. -/
theorem gates_eq (c : Dev nD) :
    (V m c main_v19 : S2x64.Idx → Ideal .f32)
      = concatenate S2x64 0 [⟨S1x64, (m ((c : Thread nD τ).loc main_arg5))⟩, ⟨S1x64, (m ((c : Thread nD τ).loc main_arg6))⟩] concatenates_S1x64_S1x64_S2x64_d0 := by
  show StableHlo.after hostOps0 (fun b => m (c, b)) (Proc.devRef .tc main_v19) = _
  after_results

/-! ## The three arrays at an entry -/

theorem rows_apply (c : Dev nD) (e : Fin 1000000) (d : Fin 64) :
    (V m c main_v16 : S1000000x64.Idx → Ideal .bf16) (ix2 e d)
      = srcRows (m ((c : Thread nD τ).loc main_arg0)) (m ((c : Thread nD τ).loc main_arg8)) (ix2 e d)
        * srcScale (m ((c : Thread nD τ).loc main_arg3)) (m ((c : Thread nD τ).loc main_arg8)) (ix2 e (0 : Fin 1)) := by
  rw [rows_eq m c, ← bcast_col_apply (srcScale (m ((c : Thread nD τ).loc main_arg3)) (m ((c : Thread nD τ).loc main_arg8))) e d]
  rfl

theorem attn_apply (c : Dev nD) (e : Fin 1000000) :
    (V m c main_v18 : S1000000x1.Idx → Ideal .f32) (ix2 e (0 : Fin 1))
      = HMul.hMul (α := Ideal .f32) (β := Ideal .f32) (m ((c : Thread nD τ).loc main_arg2) (ix1 e))
          (srcScale (m ((c : Thread nD τ).loc main_arg3)) (m ((c : Thread nD τ).loc main_arg8)) (ix2 e (0 : Fin 1))) := by
  rw [attn_eq m c, ← bcast_vec_apply (m ((c : Thread nD τ).loc main_arg2)) e]
  rfl

theorem gates_apply0 (c : Dev nD) (k : Fin 64) :
    (V m c main_v19 : S2x64.Idx → Ideal .f32) (ix2 (0 : Fin 2) k) = (m ((c : Thread nD τ).loc main_arg5)) (ix2 (0 : Fin 1) k) := by
  rw [gates_eq m c]
  exact stack_apply0 _ _ k

theorem gates_apply1 (c : Dev nD) (k : Fin 64) :
    (V m c main_v19 : S2x64.Idx → Ideal .f32) (ix2 (1 : Fin 2) k) = (m ((c : Thread nD τ).loc main_arg6)) (ix2 (0 : Fin 1) k) := by
  rw [gates_eq m c]
  exact stack_apply1 _ _ k

end Cert.KernelIdeal.RegionInputs

end
-- ==== Proof.RefMessage.lean ====
/-
  The reference's per-edge message, read at one entry.

  For an edge e and a feature d the reference computes, before its scatter,

      message e d = (row e d * gate₁ e + proj e d * (gate₂ e * att e)) * scale e

  where row and scale are gathered from node arrays at the edge's source node, att is the edge's attention
  weight, proj e d = ∑ k, feat e k * W d k is the projected edge feature, and a gate is the logistic
  function 1 / (1 + exp (-logit)) of a logit ∑ k, feat e k * w 0 k.  The program spells a gate as a
  quotient of the constant 1 by 1 + exp of the negated logit, the constant given by its f32 word; over the
  extended reals that word is the number 1 and the quotient is the logistic function by definition.  The
  contractions are read as sums over the 64 features, the transposes and broadcasts as re-indexings; the
  only work is to identify the composed index functions at the entry (e, d) with plain coordinates.
  The two gathers are left as they are.
-/
import proofs.«105984_j77300821393408_2_alg».proof.Proof.Gen.ReferenceIdeal.Read
import Idealize.ShloMosaic.Lib.ValueIdx
import Idealize.ShloMosaic.Lib.IdealHost
import Idealize.ShloMosaic.PureOps.Ideal.Laws

noncomputable section

namespace Cert.ReferenceIdeal.RefMessage

open Idealize.ShloMosaic Idealize.ShloMosaic.ValueIdx Cert.ReferenceIdeal Cert.ReferenceIdeal.Read

/-! ## The composed index functions at an entry -/

/-- Left operand of a logit's contraction, at row e and term k: the entry (e, k) of the edge features. -/
theorem lidx1 (e : Fin 1000000) (k : Fin 64) : lidx_main_v1 (ix2 e (0 : Fin 1)) k = ix2 e k :=
  funext fun a => Fin.ext (by match a with | ⟨0, _⟩ => rfl | ⟨1, _⟩ => rfl)
/-- Right operand, through the transpose: the entry (0, k) of the gate's weight row. -/
theorem ridx1 (e : Fin 1000000) (k : Fin 64) : idx_main_v0 (ridx_main_v1 (ix2 e (0 : Fin 1)) k) = ix2 (0 : Fin 1) k :=
  funext fun a => Fin.ext (by match a with | ⟨0, _⟩ => rfl | ⟨1, _⟩ => rfl)
theorem lidx9 (e : Fin 1000000) (k : Fin 64) : lidx_main_v9 (ix2 e (0 : Fin 1)) k = ix2 e k :=
  funext fun a => Fin.ext (by match a with | ⟨0, _⟩ => rfl | ⟨1, _⟩ => rfl)
theorem ridx9 (e : Fin 1000000) (k : Fin 64) : idx_main_v8 (ridx_main_v9 (ix2 e (0 : Fin 1)) k) = ix2 (0 : Fin 1) k :=
  funext fun a => Fin.ext (by match a with | ⟨0, _⟩ => rfl | ⟨1, _⟩ => rfl)
theorem lidx17 (e : Fin 1000000) (d k : Fin 64) : lidx_main_v17 (ix2 e d) k = ix2 e k :=
  funext fun a => Fin.ext (by match a with | ⟨0, _⟩ => rfl | ⟨1, _⟩ => rfl)
/-- Right operand of the projection, through the transpose: the entry (d, k) of the weight matrix. -/
theorem ridx17 (e : Fin 1000000) (d k : Fin 64) : idx_main_v16 (ridx_main_v17 (ix2 e d) k) = ix2 d k :=
  funext fun a => Fin.ext (by match a with | ⟨0, _⟩ => rfl | ⟨1, _⟩ => rfl)
/-- A per-edge column broadcast along the features is read at (e, 0). -/
theorem bidx33 (e : Fin 1000000) (d : Fin 64) : idx_main_v33 (ix2 e d) = ix2 e (0 : Fin 1) :=
  funext fun a => Fin.ext (by match a with | ⟨0, _⟩ => rfl | ⟨1, _⟩ => rfl)
theorem bidx36 (e : Fin 1000000) (d : Fin 64) : idx_main_v36 (ix2 e d) = ix2 e (0 : Fin 1) :=
  funext fun a => Fin.ext (by match a with | ⟨0, _⟩ => rfl | ⟨1, _⟩ => rfl)
theorem bidx39 (e : Fin 1000000) (d : Fin 64) : idx_main_v39 (ix2 e d) = ix2 e (0 : Fin 1) :=
  funext fun a => Fin.ext (by match a with | ⟨0, _⟩ => rfl | ⟨1, _⟩ => rfl)
/-- The attention vector made a column is read at e. -/
theorem bidx32 (e : Fin 1000000) : idx_main_v32 (ix2 e (0 : Fin 1)) = ix1 e :=
  funext fun a => Fin.ext (by match a with | ⟨0, _⟩ => rfl)

/-! ## The gates and the projection -/

/-- The first gate of edge e: the logistic function of the logit against the first weight row. -/
theorem gate1 (x1 : FVec Ideal S1000000x64 .f32) (x5 : FVec Ideal S1x64 .f32) (e : Fin 1000000) :
    val_main_v7 (F := Ideal) x1 x5 (ix2 e (0 : Fin 1))
      = Ideal.logistic (∑ k : Fin 64, x1 (ix2 e k) * x5 (ix2 (0 : Fin 1) k)) := by
  have hs : val_main_v1 (F := Ideal) x1 x5 (ix2 e (0 : Fin 1)) = ∑ k : Fin 64, x1 (ix2 e k) * x5 (ix2 (0 : Fin 1) k) := by
    rw [val_main_v1_apply]
    refine Finset.sum_congr rfl fun k _ => ?_
    rw [val_main_v0_apply, lidx1, ridx1]
  rw [val_main_v7_apply, val_main_v6_apply, val_main_cst_0_apply, val_main_v5_apply, val_main_v4_apply,
    val_main_cst_apply, val_main_v3_apply, val_main_v2_apply, hs]
  show Ideal.div (Ideal.ofBits .f32 0x3F800000#32) (Ideal.ofBits .f32 0x3F800000#32 + Ideal.exp (-_)) = _
  rw [Ideal.ofBits_one_f32]
  rfl

/-- The second gate of edge e, against the second weight row. -/
theorem gate2 (x1 : FVec Ideal S1000000x64 .f32) (x6 : FVec Ideal S1x64 .f32) (e : Fin 1000000) :
    val_main_v15 (F := Ideal) x1 x6 (ix2 e (0 : Fin 1))
      = Ideal.logistic (∑ k : Fin 64, x1 (ix2 e k) * x6 (ix2 (0 : Fin 1) k)) := by
  have hs : val_main_v9 (F := Ideal) x1 x6 (ix2 e (0 : Fin 1)) = ∑ k : Fin 64, x1 (ix2 e k) * x6 (ix2 (0 : Fin 1) k) := by
    rw [val_main_v9_apply]
    refine Finset.sum_congr rfl fun k _ => ?_
    rw [val_main_v8_apply, lidx9, ridx9]
  rw [val_main_v15_apply, val_main_v14_apply, val_main_cst_2_apply, val_main_v13_apply, val_main_v12_apply,
    val_main_cst_1_apply, val_main_v11_apply, val_main_v10_apply, hs]
  show Ideal.div (Ideal.ofBits .f32 0x3F800000#32) (Ideal.ofBits .f32 0x3F800000#32 + Ideal.exp (-_)) = _
  rw [Ideal.ofBits_one_f32]
  rfl

/-- The projected edge feature: row e of the features against row d of the weight matrix. -/
theorem proj (x1 : FVec Ideal S1000000x64 .f32) (x7 : FVec Ideal S64x64 .f32) (e : Fin 1000000) (d : Fin 64) :
    val_main_v17 (F := Ideal) x1 x7 (ix2 e d) = ∑ k : Fin 64, x1 (ix2 e k) * x7 (ix2 d k) := by
  rw [val_main_v17_apply]
  refine Finset.sum_congr rfl fun k _ => ?_
  rw [val_main_v16_apply, lidx17, ridx17]

/-! ## The message -/

/-- The message of edge e at feature d. -/
theorem message_apply (x0 : FVec Ideal S100000x64 .f32) (x1 : FVec Ideal S1000000x64 .f32) (x2 : FVec Ideal S1000000 .f32)
    (x3 : FVec Ideal S100000x1 .f32) (x5 x6 : FVec Ideal S1x64 .f32) (x7 : FVec Ideal S64x64 .f32) (x8 : IVec S1000000 32)
    (e : Fin 1000000) (d : Fin 64) :
    val_main_v40 (F := Ideal) x0 x1 x2 x3 x5 x6 x7 x8 (ix2 e d)
      = (val_main_v24 (F := Ideal) x0 x8 (ix2 e d) * Ideal.logistic (∑ k : Fin 64, x1 (ix2 e k) * x5 (ix2 (0 : Fin 1) k))
          + (∑ k : Fin 64, x1 (ix2 e k) * x7 (ix2 d k))
            * (Ideal.logistic (∑ k : Fin 64, x1 (ix2 e k) * x6 (ix2 (0 : Fin 1) k)) * x2 (ix1 e)))
        * val_main_v31 (F := Ideal) x3 x8 (ix2 e (0 : Fin 1)) := by
  rw [val_main_v40_apply, val_main_v38_apply, val_main_v34_apply, val_main_v33_apply, val_main_v37_apply,
    val_main_v36_apply, val_main_v35_apply, val_main_v32_apply, val_main_v39_apply,
    bidx33, bidx36, bidx39, bidx32, gate1, gate2, proj]
  rfl

end Cert.ReferenceIdeal.RefMessage

end
-- ==== Proof.LibIsReal.lean ====
/-
  "This extended real is a real number", and what keeps it so.

  Distributing a product over a sum, cancelling, moving a factor across a sum: these laws of the reals fail
  at the infinities, so a proof that uses one first shows that the values involved are real.  The property
  is closed under sums, products, finite sums, maxima and minima, quotients by a nonzero real and the
  exponential; and the hyperbolic tangent of ANY extended real is real (it is -1 and 1 at the infinities),
  which is why a network whose layers end in tanh keeps finite values whatever it is fed.
-/
import Idealize.ShloMosaic.PureOps.Ideal
import Mathlib.Algebra.BigOperators.Fin

open Idealize.ShloMosaic

namespace Cert.Proof.LibIsReal

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- The hyperbolic tangent of any extended real is real. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem IsReal.exp {x : EReal} (hx : IsReal x) : IsReal (Ideal.exp x) := by
  obtain ⟨a, rfl⟩ := hx
  exact ⟨Real.exp a, rfl⟩

/-- A quotient of a real by a nonzero real is real. -/
theorem IsReal.div {x : EReal} (hx : IsReal x) {d : ℝ} (hd : d ≠ 0) : IsReal (Ideal.div x (d : EReal)) := by
  rw [Ideal.div_coe hd]
  exact hx.mul (isReal_coe _)

/-- A real is neither infinity. -/
theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- … and conversely. -/
theorem isReal_of_ne {x : EReal} (ht : x ≠ ⊤) (hb : x ≠ ⊥) : IsReal x :=
  ⟨x.toReal, (EReal.coe_toReal ht hb).symm⟩

/-- A whole family of reals comes with its real-valued family (for stating a law over the reals). -/
theorem exists_real_family {ι : Type*} (f : ι → EReal) (h : ∀ i, IsReal (f i)) : ∃ g : ι → ℝ, ∀ i, f i = (g i : EReal) :=
  ⟨fun i => (h i).choose, fun i => (h i).choose_spec⟩

end Cert.Proof.LibIsReal
-- ==== Proof.LibIsRealVec.lean ====
/-
  Arrays of real numbers stay arrays of real numbers under the operations the printed programs use.

  `AllReal x`: every entry of the array `x` (over the extended reals) is a real.  Closed under the
  pointwise sum, difference, product, maximum and minimum; under a contraction (a finite sum of products)
  with or without a real accumulator; under a gather (whatever the indices) and an accumulating scatter of
  real updates; under a broadcast.  The hyperbolic tangent of ANY array is an array of reals, the host's
  as the vector unit's — so after a tanh layer everything is finite again, whatever came before.
-/
import proofs.«105984_j77300821393408_2_alg».proof.Proof.LibIsReal
import Idealize.ShloMosaic.PureOps.Ideal.Laws

open Idealize.ShloMosaic

namespace Cert.Proof.LibIsReal

variable {s : Shape} {φ : FTy}

/-- Every entry of the array is a real. -/
def AllReal (x : FVec Ideal s φ) : Prop := ∀ i, IsReal (x i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.maximumf {x y : FVec Ideal s φ} (hx : AllReal x) (hy : AllReal y) : AllReal (maximumf x y) :=
  fun i => (hx i).max (hy i)

theorem AllReal.minimumf {x y : FVec Ideal s φ} (hx : AllReal x) (hy : AllReal y) : AllReal (minimumf x y) :=
  fun i => (hx i).min (hy i)

/-- The vector unit's tanh of any array. -/
theorem allReal_tanh (x : FVec Ideal s φ) : AllReal (tanh x) := fun i => isReal_tanh (x i)

/-- The host's tanh of any array. -/
theorem allReal_host_tanh (x : FVec Ideal s φ) : AllReal (Host.tanh x) := fun i => isReal_tanh (x i)

theorem AllReal.exp {x : FVec Ideal s φ} (hx : AllReal x) : AllReal (exp x) := fun i => (hx i).exp

theorem AllReal.host_exp {x : FVec Ideal s φ} (hx : AllReal x) : AllReal (Host.exp x) := fun i => (hx i).exp

/-- A host contraction of real arrays. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs : FVec Ideal so .f32) := fun j => by
  rw [Ideal.dotGeneral_apply]
  exact isReal_sum _ _ fun k _ => (hl _).mul (hr _)

/-- The matrix unit's product of real arrays onto a real accumulator. -/
theorem AllReal.matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (FloatOps.matmul d prec lhs rhs acc : FVec Ideal so .f32) := fun j => by
  rw [Ideal.matmul_apply]
  exact (ha j).add (isReal_sum _ _ fun k _ => (hl _).mul (hr _))

/-- A gather reads entries of the operand: real whatever the indices are. -/
theorem AllReal.gather {si t : Shape} {w : Nat} (d : GatherDims s si t) {x : FVec Ideal s φ} (hx : AllReal x)
    (idx : IVec si w) : AllReal (Host.gather d x idx : FVec Ideal t φ) := fun _ => hx _

/-- An accumulating scatter of real updates into a real operand. -/
theorem AllReal.scatterAdd {si u : Shape} {w : Nat} (d : ScatterDims s si u) {x : FVec Ideal s φ} {upd : FVec Ideal u φ}
    (hx : AllReal x) (hu : AllReal upd) (idx : IVec si w) : AllReal (Host.scatterAdd (F := Ideal) d x idx upd) := fun i => by
  show IsReal (Ideal.hostScatterAdd d x idx upd i)
  unfold Ideal.hostScatterAdd
  exact (hx i).add (isReal_sum _ _ fun j _ => hu j)

/-- A broadcast repeats entries. -/
theorem AllReal.broadcastInDim {t : Shape} (dims : Fin s.rank → Fin t.rank) (h : s.BroadcastsInDim t dims)
    {x : FVec Ideal s φ} (hx : AllReal x) : AllReal (broadcastInDim t dims h x : FVec Ideal t φ) := fun _ => hx _

end Cert.Proof.LibIsReal
-- ==== Proof.LibPreDecode.lean ====
/-
  The element facts behind a precondition of the form "every float input finite, every integer input in
  its range".

  The precondition is printed as a conjunction of reductions `all (…)`; once a reduction is opened (the
  library's law for an all-reduce) one is left with a fact about ONE element: for a float, that its
  absolute value compares below the word of +infinity — which says exactly that it is a real number —; for
  an integer, that the conjunction of two signed compares holds — which bounds it, as a signed number and,
  when the lower bound is not negative, as a natural number.
-/
import proofs.«105984_j77300821393408_2_alg».proof.Proof.LibIsReal
import Idealize.ShloMosaic.Lib.Affine
import Idealize.ShloMosaic.Lib.ReduceAll
import proofs.«105984_j77300821393408_2_alg».proof.Proof.LibIsRealVec

open Idealize.ShloMosaic

namespace Cert.Proof.LibPreDecode

open LibIsReal

/-- The word of +infinity. -/
theorem ofBits_inf : Ideal.ofBits .f32 0x7F800000#32 = ⊤ := by simp [Ideal.ofBits, Ideal.ieee]

/-- The one-bit word of a decided proposition is `1` exactly when the proposition holds. -/
theorem ofBool_decide_eq_one (p : Prop) [Decidable p] : BitVec.ofBool (decide p) = 1#1 ↔ p := by
  by_cases h : p <;> simp [h]

/-- `|x| < +inf` holds exactly of the real numbers. -/
theorem abs_lt_inf_iff (x : EReal) :
    Ideal.cmp .olt (max x (-x)) (Ideal.ofBits .f32 0x7F800000#32) = 1#1 ↔ IsReal x := by
  rw [ofBits_inf]
  show BitVec.ofBool (decide (max x (-x) < ⊤)) = 1#1 ↔ IsReal x
  rw [ofBool_decide_eq_one]
  induction x using EReal.rec with
  | bot =>
    rw [EReal.neg_bot, max_eq_right bot_le]
    exact ⟨fun h => absurd h (lt_irrefl _), fun h => absurd rfl h.ne_bot⟩
  | coe r =>
    refine ⟨fun _ => isReal_coe r, fun _ => ?_⟩
    exact max_lt (EReal.coe_lt_top r) (by rw [← EReal.coe_neg]; exact EReal.coe_lt_top _)
  | top =>
    rw [max_eq_left le_top]
    exact ⟨fun h => absurd h (lt_irrefl _), fun h => absurd rfl h.ne_top⟩

/-- The two signed compares of a range check, together, bound the word as a signed number. -/
theorem range_iff (a lo hi : BitVec 32) :
    IntOp.andi (IntOp.cmpi .sge a lo) (IntOp.cmpi .sle a hi) = 1#1 ↔ lo.toInt ≤ a.toInt ∧ a.toInt ≤ hi.toInt :=
  IntOp.andi_eq_one.trans (and_congr IntOp.cmpi_sge IntOp.cmpi_sle)

/-- A word that is not negative as a signed number and at most `N` is at most `N` as a natural number:
    what an indexed access asks of its index. -/
theorem toNat_le_of_range (a : BitVec 32) (N : ℕ) (h0 : 0 ≤ a.toInt) (h1 : a.toInt ≤ (N : ℤ)) : a.toNat ≤ N := by
  rw [BitVec.toInt_eq_toNat_cond] at h0 h1
  split at h0 <;> omega

/-! ## The two kinds of conjunct, for a whole array of any shape -/

/-- The result shape of an all-reduce to a scalar has one index. -/
instance subsingleton_scalar_idx : Subsingleton (⟨0, ![]⟩ : Shape).Idx := ⟨fun _ _ => funext fun d => d.elim0⟩

section Whole

variable {s : Shape} {axes : List (Fin s.rank)}

/-- `all (|x| < +inf)` says every entry of `x` is real. -/
theorem allReal_of_all_finite (x : FVec Ideal s .f32) (inf : FVec Ideal s .f32)
    (hinf : ∀ i, inf i = Ideal.ofBits .f32 0x7F800000#32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (cmpf .olt (Host.absf x) inf) init h hu j = 1#1) : AllReal x := fun i => by
  have hi := Host.reduce_andi_all (cmpf .olt (Host.absf x) inf) init h hu j e i
  have : Ideal.cmp .olt (max (x i) (-(x i))) (Ideal.ofBits .f32 0x7F800000#32) = 1#1 := by
    rw [← hinf i]; exact hi
  exact (abs_lt_inf_iff (x i)).mp this

/-- `all (lo ≤ x ∧ x ≤ hi)` bounds every entry of `x` as a signed number. -/
theorem range_of_all (x lo hi : IVec s 32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (andi (cmpi .sge x lo) (cmpi .sle x hi)) init h hu j = 1#1) (i : s.Idx) :
    (lo i).toInt ≤ (x i).toInt ∧ (x i).toInt ≤ (hi i).toInt :=
  (range_iff (x i) (lo i) (hi i)).mp (Host.reduce_andi_all (andi (cmpi .sge x lo) (cmpi .sle x hi)) init h hu j e i)

end Whole

end Cert.Proof.LibPreDecode
-- ==== Proof.FiniteInputs.lean ====
/-
  The precondition "every float input is finite", opened.

  The predicate is printed as a conjunction (of one-bit words) of eight all-reductions, one per float
  array: all (|x| < +inf).  A conjunction of two one-bit words is 1 exactly when both words are 1, and an
  all-reduction that is 1 says that every entry compares below +infinity in absolute value, which holds
  exactly of the real numbers.  So the precondition gives: each of the eight float arrays is an array of
  real numbers.  (The two integer arrays are not constrained by it.)
-/
import proofs.«105984_j77300821393408_2_alg».proof.Pre_finite_inputs
import proofs.«105984_j77300821393408_2_alg».proof.Proof.LibPreDecode

open Idealize.ShloMosaic Cert.Proof.LibIsReal Cert.Proof.LibPreDecode Cert.Pre_finite_inputs

namespace Cert.Proof.FiniteInputs

/-- If the printed predicate is 1 (at its one index), every float argument is an array of reals.
    The predicate is the left-nested conjunction ((((((r0 ∧ r1) ∧ r2) ∧ r3) ∧ r4) ∧ r5) ∧ r6) ∧ r7 of the
    eight all-reductions; it is split from the outside in, and each all-reduction is read entrywise. -/
theorem allReal_of_pre [Cert.Pre_finite_inputs.Facts]
    (a0 : FVec Ideal S100000x64 .f32) (a1 : FVec Ideal S1000000x64 .f32) (a2 : FVec Ideal S1000000 .f32)
    (a3 a4 : FVec Ideal S100000x1 .f32) (a5 a6 : FVec Ideal S1x64 .f32) (a7 : FVec Ideal S64x64 .f32)
    (a8 a9 : IVec S1000000 32)
    (h : Cert.Pre_finite_inputs.fn (F := Ideal) a0 a1 a2 a3 a4 a5 a6 a7 a8 a9 = fun _ => 1#1) :
    AllReal a0 ∧ AllReal a1 ∧ AllReal a2 ∧ AllReal a3 ∧ AllReal a4 ∧ AllReal a5 ∧ AllReal a6 ∧ AllReal a7 := by
  have h0 := congrFun h (fun a => a.elim0 : S_.Idx)
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all_finite _ _ (fun _ => rfl) _ _ _ _ e0,
    allReal_of_all_finite _ _ (fun _ => rfl) _ _ _ _ e1,
    allReal_of_all_finite _ _ (fun _ => rfl) _ _ _ _ e2,
    allReal_of_all_finite _ _ (fun _ => rfl) _ _ _ _ e3,
    allReal_of_all_finite _ _ (fun _ => rfl) _ _ _ _ e4,
    allReal_of_all_finite _ _ (fun _ => rfl) _ _ _ _ e5,
    allReal_of_all_finite _ _ (fun _ => rfl) _ _ _ _ e6,
    allReal_of_all_finite _ _ (fun _ => rfl) _ _ _ _ e7⟩

end Cert.Proof.FiniteInputs
-- ==== Proof.MessageLaw.lean ====
/-
  The law that joins the two programs.

  One program scales the gathered source row and the attention weight by the source node's factor c before
  the message is formed, the other scales the finished message: over the reals
      (a·c)·p + q·(r·(t·c)) = (a·p + q·(r·t))·c.
  The law distributes a product over a sum, so it fails at the infinities of the extended reals; it is
  stated for real values.  The gates p and r are logistic functions of real logits, hence real.
-/
import proofs.«105984_j77300821393408_2_alg».proof.Proof.LibIsReal

open Idealize.ShloMosaic

namespace Cert.Proof.MessageLaw

open Cert.Proof.LibIsReal

/-- Scaling by `c` before or after forming the message gives the same real number. -/
theorem scale_commutes {a c p q r t : EReal} (ha : IsReal a) (hc : IsReal c) (hp : IsReal p) (hq : IsReal q)
    (hr : IsReal r) (ht : IsReal t) : (a * c) * p + q * (r * (t * c)) = (a * p + q * (r * t)) * c := by
  obtain ⟨a, rfl⟩ := ha; obtain ⟨c, rfl⟩ := hc; obtain ⟨p, rfl⟩ := hp
  obtain ⟨q, rfl⟩ := hq; obtain ⟨r, rfl⟩ := hr; obtain ⟨t, rfl⟩ := ht
  simp only [← EReal.coe_mul, ← EReal.coe_add]
  exact congrArg _ (by ring)

/-- The logistic function of a real number is a real number. -/
theorem isReal_logistic {x : EReal} (hx : IsReal x) : IsReal (Ideal.logistic x) := by
  obtain ⟨r, rfl⟩ := hx
  rw [Ideal.logistic_coe]
  exact isReal_coe _

end Cert.Proof.MessageLaw
-- ==== Proof.Bridge.lean ====
/-
  The two programs compute one function.

  Message by message: the kernel program scales the gathered source row and the attention weight by the source
  node's factor on the host and forms the message in the kernel; the reference forms the message and scales it
  last.  Entry by entry the two are  (a·c)·p + q·(r·(t·c))  and  (a·p + q·(r·t))·c  with a the gathered row
  entry, c the gathered factor, p and r the two gates, q the projected feature and t the attention weight.
  The gathers read entries of the argument arrays whatever the indices are, so under the precondition (every
  float argument an array of reals) all six values are real, and the two expressions are equal.  Both
  programs then aggregate the message array in the same way, so their results are equal.
-/
import proofs.«105984_j77300821393408_2_alg».proof.Defs
import proofs.«105984_j77300821393408_2_alg».proof.Proof.KernelRun
import proofs.«105984_j77300821393408_2_alg».proof.Proof.RegionInputs
import proofs.«105984_j77300821393408_2_alg».proof.Proof.RefMessage
import proofs.«105984_j77300821393408_2_alg».proof.Proof.FiniteInputs
import proofs.«105984_j77300821393408_2_alg».proof.Proof.MessageLaw
import proofs.«105984_j77300821393408_2_alg».proof.Proof.LibIsRealVec
import proofs.«105984_j77300821393408_2_alg».proof.Proof.Gen.KernelIdeal
import proofs.«105984_j77300821393408_2_alg».proof.Proof.Gen.ReferenceIdeal
import proofs.«105984_j77300821393408_2_alg».proof.Proof.Gen.Pre_finite_inputs

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen
open Cert.Proof.LibIsReal
open Cert.KernelIdeal.Blocks Cert.KernelIdeal.RegionInputs Cert.KernelIdeal.HostTail

/-- ONE ENTRY: scaled before (the kernel program's arrangement, over the gathered rows and factors) or after (the
    reference's message), the message of edge `e` at feature `d` is the same real number. -/
theorem entry_eq (x0 : FVec Ideal S100000x64 .f32) (x1 : FVec Ideal S1000000x64 .f32) (x2 : FVec Ideal S1000000 .f32)
    (x3 : FVec Ideal S100000x1 .f32) (x5 x6 : FVec Ideal S1x64 .f32) (x7 : FVec Ideal S64x64 .f32) (x8 : IVec S1000000 32)
    (h0 : AllReal x0) (h1 : AllReal x1) (h2 : AllReal x2) (h3 : AllReal x3) (h5 : AllReal x5) (h6 : AllReal x6)
    (h7 : AllReal x7) (e : Fin 1000000) (d : Fin 64) :
    (srcRows x0 x8 (ix2 e d) * srcScale x3 x8 (ix2 e (0 : Fin 1)))
          * Ideal.logistic (∑ k : Fin 64, x1 (ix2 e k) * x5 (ix2 (0 : Fin 1) k))
        + (∑ k : Fin 64, x1 (ix2 e k) * x7 (ix2 d k))
          * (Ideal.logistic (∑ k : Fin 64, x1 (ix2 e k) * x6 (ix2 (0 : Fin 1) k))
              * (x2 (ix1 e) * srcScale x3 x8 (ix2 e (0 : Fin 1))))
      = Cert.ReferenceIdeal.Read.val_main_v40 (F := Ideal) x0 x1 x2 x3 x5 x6 x7 x8 (ix2 e d) := by
  rw [Cert.ReferenceIdeal.RefMessage.message_apply,
    show srcRows x0 x8 = Cert.ReferenceIdeal.Read.val_main_v24 (F := Ideal) x0 x8 from rfl,
    show srcScale x3 x8 = Cert.ReferenceIdeal.Read.val_main_v31 (F := Ideal) x3 x8 from rfl]
  exact Cert.Proof.MessageLaw.scale_commutes (h0 _) (h3 _)
    (Cert.Proof.MessageLaw.isReal_logistic (isReal_sum _ _ fun k _ => (h1 _).mul (h5 _)))
    (isReal_sum _ _ fun k _ => (h1 _).mul (h7 _))
    (Cert.Proof.MessageLaw.isReal_logistic (isReal_sum _ _ fun k _ => (h1 _).mul (h6 _)))
    (h2 _)

variable (m : (ℓ : Loc nD τ sig) → Buf (Elt Ideal) ℓ)

/-- The message array the kernel program leaves is the reference's message array, when the float arguments are real. -/
theorem message_eq (c : Dev nD)
    (h0 : AllReal (s := S100000x64) (φ := .f32) (m ((c : Thread nD τ).loc main_arg0))) (h1 : AllReal (s := S1000000x64) (φ := .f32) (m ((c : Thread nD τ).loc main_arg1)))
    (h2 : AllReal (s := S1000000) (φ := .f32) (m ((c : Thread nD τ).loc main_arg2))) (h3 : AllReal (s := S100000x1) (φ := .f32) (m ((c : Thread nD τ).loc main_arg3)))
    (h5 : AllReal (s := S1x64) (φ := .f32) (m ((c : Thread nD τ).loc main_arg5))) (h6 : AllReal (s := S1x64) (φ := .f32) (m ((c : Thread nD τ).loc main_arg6)))
    (h7 : AllReal (s := S64x64) (φ := .f32) (m ((c : Thread nD τ).loc main_arg7))) :
    message (V m c main_arg1) (V m c main_v16) (V m c main_v18) (V m c main_v19) (V m c main_arg7)
      = truncf (F := Ideal) (φ := .f32) .bf16 (Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) : FVec Ideal S1000000x64 .f32) := by
  funext i
  obtain ⟨e, d, rfl⟩ : ∃ (e : Fin 1000000) (d : Fin 64), i = ix2 e d := ⟨i 0, i 1, eq_ix2 i⟩
  show messageAt (V m c main_arg1) (V m c main_v16) (V m c main_v18) (V m c main_v19) (V m c main_arg7) e d
    = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (ix2 e d)
  unfold messageAt
  rw [V_main_arg1 m c, V_main_arg7 m c]
  simp only [rows_apply m c, attn_apply m c, gates_apply0 m c, gates_apply1 m c]
  exact entry_eq _ _ _ _ _ _ _ _ h0 h1 h2 h3 h5 h6 h7 e d

/-- The kernel program's aggregate of the reference's message array is the reference's result. -/
theorem aggregate_eq (c : Dev nD) :
    aggregate (truncf (F := Ideal) (φ := .f32) .bf16 (Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) : FVec Ideal S1000000x64 .f32)) (m ((c : Thread nD τ).loc main_arg9)) (m ((c : Thread nD τ).loc main_arg4))
      = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl

/-- THE ALGEBRAIC CLAIM: from memories agreeing on the arguments both programs run to equal results. -/
theorem algebraic : Cert.algebraic_KernelIdeal_ReferenceIdeal := by
  intro m ρ m' ρ' hpre hagree
  refine ⟨fun c => Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)), ?_, ?_⟩
  · refine (θ_run Cert.KernelIdeal.defs _ _).mono (fun r h c => ⟨(h c).1.trans ?_, (h c).2⟩) (Cert.KernelIdeal.KernelRun.run m ρ)
    obtain ⟨h0, h1, h2, h3, -, h5, h6, h7⟩ := Cert.Proof.FiniteInputs.allReal_of_pre _ _ _ _ _ _ _ _ _ _ (hpre c)
    rw [message_eq m c h0 h1 h2 h3 h5 h6 h7]
    exact aggregate_eq m c
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v45_eq]
    obtain ⟨e0, e1, e2, e3, e4, e5, e6, e7, e8, e9⟩ := hagree c
    rw [e0, e1, e2, e3, e4, e5, e6, e7, e8, e9]

end Cert.Proof.Bridge

end
-- ==== Proof.lean ====
/-
  The proof of `Cert.Claim`: a graph-convolution message-passing kernel against its jnp reference.

  Per edge e (a million of them) and feature d (64) both programs form a message from the source node's row
  a = weight[src e, d] and factor c = cj[src e], the attention weight t = attn e, and three products of the
  edge's feature row with weight rows: two gate logits (passed through the logistic function to p and r) and
  the projected feature q; then both sum the messages arriving at each destination node and scale by the
  node's factor.  The kernel program forms (a·c)·p + q·(r·(t·c)), the scaling by c done on the host before the
  kernel; the reference forms (a·p + q·(r·t))·c.  Over the reals these agree; the precondition (every float
  argument finite) makes every value involved real.

  The modules: MessageLaw (the law, over the reals), FiniteInputs (the precondition opened), EdgeBlock (what the
  kernel body stores, at an entry), RegionInputs (what the region finds in the arrays the host computed),
  Blocks (from the 125 blocks of 8000 rows to the whole message array), HostTail (the lines after the region),
  KernelRun (the kernel program's run with its result named), RefMessage (the reference's message at an entry),
  Bridge (the two message arrays are equal, hence the results).  The three frames are the generated ones (the
  reference's is its generated run with the result dropped); no idealization rule was applied, so there is
  nothing to preserve.
-/
import proofs.«105984_j77300821393408_2_alg».proof.Defs
import proofs.«105984_j77300821393408_2_alg».proof.Proof.Gen.Kernel
import proofs.«105984_j77300821393408_2_alg».proof.Proof.Gen.Kernel.Skeleton
import proofs.«105984_j77300821393408_2_alg».proof.Proof.Gen.Kernel.Launch
import proofs.«105984_j77300821393408_2_alg».proof.Proof.Gen.Kernel.Points
import proofs.«105984_j77300821393408_2_alg».proof.Proof.Gen.Kernel.Frame
import proofs.«105984_j77300821393408_2_alg».proof.Proof.Gen.KernelIdeal
import proofs.«105984_j77300821393408_2_alg».proof.Proof.Gen.KernelIdeal.Skeleton
import proofs.«105984_j77300821393408_2_alg».proof.Proof.Gen.KernelIdeal.Launch
import proofs.«105984_j77300821393408_2_alg».proof.Proof.Gen.KernelIdeal.Points
import proofs.«105984_j77300821393408_2_alg».proof.Proof.Gen.KernelIdeal.Frame
import proofs.«105984_j77300821393408_2_alg».proof.Proof.Gen.ReferenceIdeal
import proofs.«105984_j77300821393408_2_alg».proof.Proof.Gen.Pre_finite_inputs
import proofs.«105984_j77300821393408_2_alg».proof.Proof.Gen.ReferenceIdeal.Run
import proofs.«105984_j77300821393408_2_alg».proof.Proof.Gen.ReferenceIdeal.Read
import proofs.«105984_j77300821393408_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Bridge.algebraic⟩

end Cert.Proof

end
